-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S2000x256 : Shape := ⟨2, ![2000, 256]⟩
abbrev S400x10000 : Shape := ⟨2, ![400, 10000]⟩
abbrev S400x256 : Shape := ⟨2, ![400, 256]⟩

abbrev nBuf : Space → Nat
  | .hbm => 8
  | .vmem => 18
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S10000x256, .bf16⟩
  | .hbm, ⟨5, _⟩ => ⟨S10000x256, .bf16⟩
  | .hbm, ⟨6, _⟩ => ⟨S10000x10000, .bf16⟩
  | .hbm, ⟨7, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .bf16⟩
  | .local _ .vmem, ⟨4, _⟩ => ⟨S2000x256, .bf16⟩
  | .local _ .vmem, ⟨5, _⟩ => ⟨S400x10000, .f32⟩
  | .local _ .vmem, ⟨6, _⟩ => ⟨S400x10000, .f32⟩
  | .local _ .vmem, ⟨7, _⟩ => ⟨S10000x256, .bf16⟩
  | .local _ .vmem, ⟨8, _⟩ => ⟨S256x256, .f32⟩
  | .local _ .vmem, ⟨9, _⟩ => ⟨S400x256, .bf16⟩
  | .local _ .vmem, ⟨10, _⟩ => ⟨S400x256, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S400x10000, .bf16⟩
  | .local _ .vmem, ⟨15, _⟩ => ⟨S10000x256, .bf16⟩
  | .local _ .vmem, ⟨16, _⟩ => ⟨S400x256, .f32⟩
  | .local _ .vmem, ⟨17, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  shapeCasts_S400x10000_S400x10000 : S400x10000.ShapeCasts S400x10000
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .bf16 = 32 ∨ (Rect.block (s := S10000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .bf16 = 32 ∨ (Rect.block (s := S10000x256) S400x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x10000.size a ≤ S10000x10000.size a
  hwx1_4 : ∀ i : grid1.Coords, EltTy.bits .bf16 = 32 ∨ (Rect.block (s := S10000x10000) S400x10000.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x256.size a ≤ S10000x256.size a
  hwx2_2 : ∀ i : grid2.Coords, EltTy.bits .f32 = 32 ∨ (Rect.block (s := S10000x256) S400x256.size (cc2_transform_2 i) (hinb2_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S400x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S400x10000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S10000x256, .f32⟩
  | .hbm, ⟨5, _⟩ => ⟨S10000x256, .f32⟩
  | .hbm, ⟨6, _⟩ => ⟨S_, .f32⟩
  | .hbm, ⟨7, _⟩ => ⟨S10000x256, .f32⟩
  | .hbm, ⟨8, _⟩ => ⟨S10000x256, .f32⟩
  | .hbm, ⟨9, _⟩ => ⟨S10000x256, .f32⟩
  | .hbm, ⟨10, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Dots.lean ====
/-
  The three contractions the kernel's bodies make, each read at an index. On the extended reals a matrix product
  into a zero accumulator is, at row `p` and column `q`, the plain sum over the contracted position `k` of
  `l (p, k) · r (k, q)`, whatever the precision the contraction was asked at: the contraction's index set is one
  axis, re-indexed here by its position `k`, and the operands' indices at `(p, q)` and `k` are `(p, k)` and `(k, q)`.
-/
import proofs.«102306_g15195594293516_cont_week2b_250_6_alg».proof.Proof.Gen.KernelIdeal
import Idealize.ShloMosaic.Lib.ValueIdx
import Idealize.ShloMosaic.PureOps.Ideal.Laws

noncomputable section

namespace Cert.KernelIdeal.Dots

open Cert.KernelIdeal Idealize.ShloMosaic Idealize.ShloMosaic.ValueIdx

/-- The contraction `[2000, 256] × [256, 256]` into a zero accumulator, read at row `p`, column `q`: the sum over the
    256 contracted positions of the left operand's row `p` against the right operand's column `q`. -/
theorem dot_feat2000 {φ₁ φ₂ : FTy} (prec : Option ContractPrecision) (l : FVec Ideal S2000x256 φ₁) (r : FVec Ideal S256x256 φ₂)
    (p : Fin 2000) (q : Fin 256) :
    matmul dot_S2000x256_S256x256_S2000x256_1_0_0_1_n_n prec l r (constant (F := Ideal) S2000x256 .f32 0x00000000#32) (ix2 p q)
      = ∑ k : Fin 256, l (ix2 p k) * r (ix2 k q) := by
  refine (Ideal.matmul_constant_zero_apply dot_S2000x256_S256x256_S2000x256_1_0_0_1_n_n prec l r (ix2 p q)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ =>
      show (dot_S2000x256_S256x256_S2000x256_1_0_0_1_n_n.lhsIdx (ix2 p q) _ 0).val = p.val
      unfold DotDims.lhsIdx
      rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
      rfl
    | ⟨1, _⟩ => exact (dot_S2000x256_S256x256_S2000x256_1_0_0_1_n_n.lhsIdx_val_of_single rfl (ix2 p q) _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (dot_S2000x256_S256x256_S2000x256_1_0_0_1_n_n.rhsIdx_val_of_single rfl (ix2 p q) _).trans hk
    | ⟨1, _⟩ =>
      show (dot_S2000x256_S256x256_S2000x256_1_0_0_1_n_n.rhsIdx (ix2 p q) _ 1).val = q.val
      unfold DotDims.rhsIdx
      rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
      rfl)
  rw [el, er]

/-- The contraction `[400, 10000] × [10000, 256]` into a zero accumulator, read at row `p`, column `q`: the sum over the
    10000 contracted positions of the left operand's row `p` against the right operand's column `q`. -/
theorem dot_aggr400 {φ₁ φ₂ : FTy} (prec : Option ContractPrecision) (l : FVec Ideal S400x10000 φ₁) (r : FVec Ideal S10000x256 φ₂)
    (p : Fin 400) (q : Fin 256) :
    matmul dot_S400x10000_S10000x256_S400x256_1_0_0_1_n_n prec l r (constant (F := Ideal) S400x256 .f32 0x00000000#32) (ix2 p q)
      = ∑ k : Fin 10000, l (ix2 p k) * r (ix2 k q) := by
  refine (Ideal.matmul_constant_zero_apply dot_S400x10000_S10000x256_S400x256_1_0_0_1_n_n prec l r (ix2 p q)).trans ?_
  rw [← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k := funext fun a => Fin.ext (by
    match a with
    | ⟨0, _⟩ =>
      show (dot_S400x10000_S10000x256_S400x256_1_0_0_1_n_n.lhsIdx (ix2 p q) _ 0).val = p.val
      unfold DotDims.lhsIdx
      rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
      rfl
    | ⟨1, _⟩ => exact (dot_S400x10000_S10000x256_S400x256_1_0_0_1_n_n.lhsIdx_val_of_single rfl (ix2 p q) _).trans hk)
  have er : dot_S400x10000_S10000x256_S400x256_1_0_0_1_n_n.rhsIdx (ix2 p q) ((contrEquiv1 dot_S400x10000_S10000x256_S400x256_1_0_0_1_n_n 10000 rfl rfl).symm k) = ix2 k q := funext fun a => Fin.ext (by
    match a with
    | ⟨0, _⟩ => exact (dot_S400x10000_S10000x256_S400x256_1_0_0_1_n_n.rhsIdx_val_of_single rfl (ix2 p q) _).trans hk
    | ⟨1, _⟩ =>
      show (dot_S400x10000_S10000x256_S400x256_1_0_0_1_n_n.rhsIdx (ix2 p q) _ 1).val = q.val
      unfold DotDims.rhsIdx
      rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
      rfl)
  rw [el, er]

/-- The contraction `[400, 256] × [256, 256]` into a zero accumulator, read at row `p`, column `q`: the sum over the
    256 contracted positions of the left operand's row `p` against the right operand's column `q`. -/
theorem dot_feat400 {φ₁ φ₂ : FTy} (prec : Option ContractPrecision) (l : FVec Ideal S400x256 φ₁) (r : FVec Ideal S256x256 φ₂)
    (p : Fin 400) (q : Fin 256) :
    matmul dot_S400x256_S256x256_S400x256_1_0_0_1_n_n prec l r (constant (F := Ideal) S400x256 .f32 0x00000000#32) (ix2 p q)
      = ∑ k : Fin 256, l (ix2 p k) * r (ix2 k q) := by
  refine (Ideal.matmul_constant_zero_apply dot_S400x256_S256x256_S400x256_1_0_0_1_n_n prec l r (ix2 p q)).trans ?_
  rw [← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p q) ((contrEquiv1 dot_S400x256_S256x256_S400x256_1_0_0_1_n_n 256 rfl rfl).symm k) = ix2 p k := funext fun a => Fin.ext (by
    match a with
    | ⟨0, _⟩ =>
      show (dot_S400x256_S256x256_S400x256_1_0_0_1_n_n.lhsIdx (ix2 p q) _ 0).val = p.val
      unfold DotDims.lhsIdx
      rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
      rfl
    | ⟨1, _⟩ => exact (dot_S400x256_S256x256_S400x256_1_0_0_1_n_n.lhsIdx_val_of_single rfl (ix2 p q) _).trans hk)
  have er : dot_S400x256_S256x256_S400x256_1_0_0_1_n_n.rhsIdx (ix2 p q) ((contrEquiv1 dot_S400x256_S256x256_S400x256_1_0_0_1_n_n 256 rfl rfl).symm k) = ix2 k q := funext fun a => Fin.ext (by
    match a with
    | ⟨0, _⟩ => exact (dot_S400x256_S256x256_S400x256_1_0_0_1_n_n.rhsIdx_val_of_single rfl (ix2 p q) _).trans hk
    | ⟨1, _⟩ =>
      show (dot_S400x256_S256x256_S400x256_1_0_0_1_n_n.rhsIdx (ix2 p q) _ 1).val = q.val
      unfold DotDims.rhsIdx
      rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
      rfl)
  rw [el, er]

end Cert.KernelIdeal.Dots

end
-- ==== Proof.Pay.lean ====
/-
  What each kernel body stores, read at an index, on the extended reals — where narrowing a float is the
  identity and a same-shape cast changes nothing:
    the first body stores   (x · w₁)(p, q)                 = Σ_k x(p, k) · w₁(k, q)          over a 2000-row block of x;
    the second body stores  its adjacency block unchanged, and
                            (relu (a · s) · w₂)(p, q)      = Σ_k max (Σ_l a(p, l) · s(l, k)) 0 · w₂(k, q)
                                                                                              over a 400-row block of a;
    the third body stores   (a · s)(p, q)                  = Σ_k a(p, k) · s(k, q)           over a 400-row block of a.
  The zero the maximum is taken against is the zero word, whose value is the real 0.
-/
import proofs.«102306_g15195594293516_cont_week2b_250_6_alg».proof.Proof.Gen.KernelIdeal.Skeleton
import proofs.«102306_g15195594293516_cont_week2b_250_6_alg».proof.Proof.Dots
import Idealize.ShloMosaic.Lib.Pipeline.Value

noncomputable section

namespace Cert.KernelIdeal.Pay

open Cert.KernelIdeal Cert.KernelIdeal.Gen Idealize.ShloMosaic Idealize.ShloMosaic.ValueIdx

/-- The first body's store: the feature product of its 2000 rows with the first weight. -/
theorem support_at (x0 : FVec Ideal S2000x256 .f32) (x1 : FVec Ideal S256x256 .f32) (p : Fin 2000) (q : Fin 256) :
    k0_pay1 (F := Ideal) x0 x1 (ix2 p q) = ∑ k : Fin 256, x0 (ix2 p k) * x1 (ix2 k q) := by
  unfold k0_pay1
  exact Dots.dot_feat2000 (φ₁ := .f32) (φ₂ := .f32) (some .fp32) x0 x1 p q

/-- The second body's first store: its adjacency block, narrowed — unchanged. -/
theorem adj_copy (x0 : FVec Ideal S400x10000 .f32) : k1_pay1 (F := Ideal) x0 = x0 := rfl

/-- The aggregation inside the second body, before the maximum. -/
theorem mid_acc_at (x0 : FVec Ideal S400x10000 .f32) (x3 : FVec Ideal S10000x256 .bf16) (p : Fin 400) (k : Fin 256) :
    matmul dot_S400x10000_S10000x256_S400x256_1_0_0_1_n_n none (k1_pay1 (F := Ideal) x0)
        (shapeCast S10000x256 x3 shapeCasts_S10000x256_S10000x256) (constant (F := Ideal) S400x256 .f32 0x00000000#32) (ix2 p k)
      = ∑ l : Fin 10000, x0 (ix2 p l) * x3 (ix2 l k) := by
  rw [shapeCast_self x3 shapeCasts_S10000x256_S10000x256, adj_copy x0]
  exact Dots.dot_aggr400 (φ₁ := .bf16) (φ₂ := .bf16) none x0 x3 p k

/-- The second body's second store: the hidden layer's 400 rows against the second weight. -/
theorem s2_at (x0 : FVec Ideal S400x10000 .f32) (x3 : FVec Ideal S10000x256 .bf16) (x8 : FVec Ideal S256x256 .f32)
    (p : Fin 400) (q : Fin 256) :
    k1_pay2 (F := Ideal) x0 x3 x8 (ix2 p q)
      = ∑ k : Fin 256, max (∑ l : Fin 10000, x0 (ix2 p l) * x3 (ix2 l k)) 0 * x8 (ix2 k q) := by
  unfold k1_pay2
  refine (Dots.dot_feat400 (φ₁ := .f32) (φ₂ := .f32) (some .fp32) _ x8 p q).trans ?_
  refine Finset.sum_congr rfl fun k _ => ?_
  refine congrArg (· * x8 (ix2 k q)) ?_
  refine (maximumf_apply _ _ (ix2 p k)).trans ?_
  refine congrArg₂ max (mid_acc_at x0 x3 p k) ?_
  exact Ideal.ofBits_zero_f32

/-- The third body's store: the aggregation of its 400 rows. -/
theorem out_at (x0 : FVec Ideal S400x10000 .bf16) (x2 : FVec Ideal S10000x256 .bf16) (p : Fin 400) (q : Fin 256) :
    k2_pay1 (F := Ideal) x0 x2 (ix2 p q) = ∑ k : Fin 10000, x0 (ix2 p k) * x2 (ix2 k q) := by
  unfold k2_pay1
  rw [shapeCast_self x0 shapeCasts_S400x10000_S400x10000, shapeCast_self x2 shapeCasts_S10000x256_S10000x256]
  exact Dots.dot_aggr400 (φ₁ := .bf16) (φ₂ := .bf16) none x0 x2 p q

end Cert.KernelIdeal.Pay

end
-- ==== Proof.Spec.lean ====
/-
  Two graph-convolution layers over a dense adjacency, as ONE function of the four argument arrays, on the
  extended reals:   out = A · (relu (A · (X · W₁)) · W₂),
  every product a plain sum over the contracted index — `feat` contracts the 256 features of a node × feature
  array against a 256 × 256 weight, `aggr` contracts the 10000 neighbours of a node against the adjacency's row —
  and `relu` the maximum with zero, element by element. Nothing here rounds: a change of float format is the
  identity on the extended reals, so the narrowed intermediates of a blocked implementation are these arrays.
  Both programs compute this grouping, so no law of the extended reals beyond the order-independence of a finite
  sum is needed, and none that asks for finite entries.
-/
import Idealize.ShloMosaic.PureOps.Ideal
import Idealize.ShloMosaic.Lib.ValueIdx

noncomputable section

namespace Cert.Gcn

open Idealize.ShloMosaic Idealize.ShloMosaic.ValueIdx

/-- node × feature arrays: 10000 nodes, 256 features. -/
abbrev SNode : Shape := ⟨2, ![10000, 256]⟩
/-- the dense adjacency: node × node. -/
abbrev SAdj : Shape := ⟨2, ![10000, 10000]⟩
/-- a layer's weight: feature × feature. -/
abbrev SWt : Shape := ⟨2, ![256, 256]⟩

/-- `h · w` at node `r`, feature `j`: the sum over the 256 input features. -/
def featAt (h : SNode.Idx → EReal) (w : SWt.Idx → EReal) (r : Fin 10000) (j : Fin 256) : EReal :=
  ∑ k : Fin 256, h (ix2 r k) * w (ix2 k j)
/-- `a · s` at node `r`, feature `j`: the sum over the 10000 neighbours. -/
def aggrAt (a : SAdj.Idx → EReal) (s : SNode.Idx → EReal) (r : Fin 10000) (j : Fin 256) : EReal :=
  ∑ k : Fin 10000, a (ix2 r k) * s (ix2 k j)

/-- The feature product of a node × feature array with a weight. -/
def feat (h : SNode.Idx → EReal) (w : SWt.Idx → EReal) : SNode.Idx → EReal := fun i => featAt h w (i 0) (i 1)
/-- The neighbourhood aggregation of a node × feature array through the adjacency. -/
def aggr (a : SAdj.Idx → EReal) (s : SNode.Idx → EReal) : SNode.Idx → EReal := fun i => aggrAt a s (i 0) (i 1)
/-- The maximum with zero, element by element. -/
def relu (h : SNode.Idx → EReal) : SNode.Idx → EReal := fun i => max (h i) 0

theorem feat_ix2 (h : SNode.Idx → EReal) (w : SWt.Idx → EReal) (r : Fin 10000) (j : Fin 256) :
    feat h w (ix2 r j) = ∑ k : Fin 256, h (ix2 r k) * w (ix2 k j) := rfl
theorem aggr_ix2 (a : SAdj.Idx → EReal) (s : SNode.Idx → EReal) (r : Fin 10000) (j : Fin 256) :
    aggr a s (ix2 r j) = ∑ k : Fin 10000, a (ix2 r k) * s (ix2 k j) := rfl
theorem relu_apply (h : SNode.Idx → EReal) (i : SNode.Idx) : relu h i = max (h i) 0 := rfl

/-- The first layer's output before the second weight: `relu (A · (X · W₁))`. -/
def hidden (x : SNode.Idx → EReal) (a : SAdj.Idx → EReal) (w1 : SWt.Idx → EReal) : SNode.Idx → EReal :=
  relu (aggr a (feat x w1))
/-- The two layers: `A · (relu (A · (X · W₁)) · W₂)`. -/
def gcn (x : SNode.Idx → EReal) (a : SAdj.Idx → EReal) (w1 w2 : SWt.Idx → EReal) : SNode.Idx → EReal :=
  aggr a (feat (hidden x a w1) w2)

end Cert.Gcn

end
-- ==== Proof.Region0.lean ====
/-
  The first pallas_call, whatever the buffers hold when it is entered (`V`): its five grid points each take 2000
  consecutive rows of the node × feature array and the whole first weight, and write back the feature product of
  those rows. Block `t` of the output is rows `2000 t … 2000 t + 1999`, all 256 columns; row `r` lies in block
  `r / 2000`; so the blocks tile the output, which ends at `feat` of the two entry arrays.
-/
import proofs.«102306_g15195594293516_cont_week2b_250_6_alg».proof.Proof.Gen.KernelIdeal.Frame
import proofs.«102306_g15195594293516_cont_week2b_250_6_alg».proof.Proof.Pay
import proofs.«102306_g15195594293516_cont_week2b_250_6_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Cert.Gcn
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The block each window takes at point `t`: the rows window and the output at block row `t`, the weight whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One point, over plain variables: if the loaded rows block holds row `i 0` of `A` at its row `p`, and the loaded
    weight holds column `i 1` of `W` at its column `q`, the stored value at `(p, q)` is `feat A W` at `i`. -/
theorem block_eq (A : SNode.Idx → EReal) (W : SWt.Idx → EReal)
    (x0 : FVec Ideal S2000x256 .f32) (x1 : FVec Ideal S256x256 .f32) (i : SNode.Idx) (p : Fin 2000) (q : Fin 256)
    (h0 : ∀ k : Fin 256, x0 (ix2 p k) = A (ix2 (i 0) k))
    (h1 : ∀ k : Fin 256, x1 (ix2 k q) = W (ix2 k (i 1))) :
    k0_pay1 (F := Ideal) x0 x1 (ix2 p q) = feat A W i := by
  rw [Pay.support_at]
  show _ = ∑ k : Fin 256, A (ix2 (i 0) k) * W (ix2 k (i 1))
  refine Finset.sum_congr rfl fun k _ => ?_
  rw [h0, h1]

/-- What point `t` writes back is block `t` of `feat` of the entry arrays. -/
theorem flushed_eq (c : Dev nD) (t : Fin cfg0.N) :
    (dat0 V c).flushed 2 t = ((cfg0.win 2).blk t).view.read (Elt Ideal) (feat (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e0, e1, e2, e3, e4, e5⟩ := idx_facts t
  funext j
  show k0_pay1 (iblk0 V c 0 t) (iblk0 V c 1 t) j
    = feat (V c main_arg0) (V c main_arg2) (((cfg0.win 2).blk t).view.emb j)
  refine (congrArg (k0_pay1 (F := Ideal) (iblk0 V c 0 t) (iblk0 V c 1 t)) (eq_ix2 (n0 := 2000) (n1 := 256) j)).trans ?_
  refine block_eq (V c main_arg0) (V c main_arg2) (iblk0 V c 0 t) (iblk0 V c 1 t)
    (((cfg0.win 2).blk t).view.emb j) (j 0) (j 1) (fun k => ?_) (fun k => ?_)
  · show V c main_arg0 (((cfg0.win 0).blk t).view.emb (ix2 (j 0) k))
      = V c main_arg0 (ix2 ((((cfg0.win 2).blk t).view.emb j) 0) k)
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 256 + 1 * k.val = k.val
      omega
  · show V c main_arg2 (((cfg0.win 1).blk t).view.emb (ix2 k (j 1)))
      = V c main_arg2 (ix2 k ((((cfg0.win 2).blk t).view.emb j) 1))
    refine congrArg (V c main_arg2) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_2.index t (1 : Fin 2) * 256 + 1 * (j 1).val
      omega

/-- An index of the output lies in point `t`'s block iff each coordinate is in the block's range on its axis. -/
theorem mem_blk (t : Fin cfg0.N) (i : S10000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- Every index of the output is in some point's block: row `r` in block `r / 2000`. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : grid0.N = 5 := N_0
  obtain ⟨t, ht⟩ : ∃ t : Fin cfg0.N, t.val = (i 0).val / 2000 :=
    ⟨⟨(i 0).val / 2000, by show (i 0).val / 2000 < grid0.N; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- The output array after the region: the feature product of the two entry arrays. -/
theorem final (c : Dev nD) : (dat0 V c).arrAt 2 cfg0.N = feat (V c main_arg0) (V c main_arg2) :=
  (dat0 V c).arrAt_eq_of_cover 2 (feat (V c main_arg0) (V c main_arg2)) (fun t _ => flushed_eq V c t) cover

end Cert.KernelIdeal.Region0

end
-- ==== Proof.Region1.lean ====
/-
  The second pallas_call, whatever the buffers hold when it is entered (`V`): its 25 grid points each take 400
  consecutive rows of the adjacency, the whole node × feature array left by the first call and the whole second
  weight, and write back two things — those adjacency rows unchanged (narrowing a float is the identity on the
  extended reals), and the rows of `relu (A · S) · W` they determine. Block `t` of either output is rows
  `400 t … 400 t + 399`, every column; row `r` lies in block `r / 400`; so the blocks tile both outputs: one ends
  at the entry adjacency itself, the other at `feat (relu (aggr A S)) W` of the three entry arrays.
-/
import proofs.«102306_g15195594293516_cont_week2b_250_6_alg».proof.Proof.Gen.KernelIdeal.Frame
import proofs.«102306_g15195594293516_cont_week2b_250_6_alg».proof.Proof.Pay
import proofs.«102306_g15195594293516_cont_week2b_250_6_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Cert.Gcn
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The block each window takes at point `t`: the adjacency window and both outputs at block row `t`, the node ×
    feature array and the weight whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The hidden layer against the second weight (output window 3) -/

/-- One point, over plain variables: if the loaded adjacency block holds row `i 0` of `A` at its row `p`, the loaded
    node × feature array is `S`, and the loaded weight holds column `i 1` of `W` at its column `q`, the stored value at
    `(p, q)` is `feat (relu (aggr A S)) W` at `i`. -/
theorem block_eq3 (A : SAdj.Idx → EReal) (S : SNode.Idx → EReal) (W : SWt.Idx → EReal)
    (x0 : FVec Ideal S400x10000 .f32) (x1 : FVec Ideal S10000x256 .bf16) (x2 : FVec Ideal S256x256 .f32)
    (i : SNode.Idx) (p : Fin 400) (q : Fin 256)
    (h0 : ∀ l : Fin 10000, x0 (ix2 p l) = A (ix2 (i 0) l))
    (h1 : ∀ (l : Fin 10000) (k : Fin 256), x1 (ix2 l k) = S (ix2 l k))
    (h2 : ∀ k : Fin 256, x2 (ix2 k q) = W (ix2 k (i 1))) :
    k1_pay2 (F := Ideal) x0 x1 x2 (ix2 p q) = feat (relu (aggr A S)) W i := by
  rw [Pay.s2_at]
  show _ = ∑ k : Fin 256, max (∑ l : Fin 10000, A (ix2 (i 0) l) * S (ix2 l k)) 0 * W (ix2 k (i 1))
  refine Finset.sum_congr rfl fun k _ => ?_
  rw [h2]
  refine congrArg (· * W (ix2 k (i 1))) ?_
  refine congrArg (max · 0) (Finset.sum_congr rfl fun l _ => ?_)
  rw [h0, h1]

/-- What point `t` writes back through window 3 is block `t` of `feat (relu (aggr A S)) W` of the entry arrays. -/
theorem flushed_eq3 (c : Dev nD) (t : Fin cfg1.N) :
    (dat1 V c).flushed 3 t = ((cfg1.win 3).blk t).view.read (Elt Ideal)
      (feat (relu (aggr (V c main_arg1) (V c main_v0))) (V c main_arg3)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x256) hz, View.ld_unit_zero (S := S256x256) hz]
  obtain ⟨e0, e1, e2, e3, e4, e5, e6, e7, e8, e9⟩ := idx_facts t
  funext j
  show k1_pay2 (iblk1 V c 0 t) (iblk1 V c 1 t) (iblk1 V c 2 t) j
    = feat (relu (aggr (V c main_arg1) (V c main_v0))) (V c main_arg3) (((cfg1.win 3).blk t).view.emb j)
  refine (congrArg (k1_pay2 (F := Ideal) (iblk1 V c 0 t) (iblk1 V c 1 t) (iblk1 V c 2 t)) (eq_ix2 (n0 := 400) (n1 := 256) j)).trans ?_
  refine block_eq3 (V c main_arg1) (V c main_v0) (V c main_arg3) (iblk1 V c 0 t) (iblk1 V c 1 t) (iblk1 V c 2 t)
    (((cfg1.win 3).blk t).view.emb j) (j 0) (j 1) (fun l => ?_) (fun l k => ?_) (fun k => ?_)
  · show V c main_arg1 (((cfg1.win 0).blk t).view.emb (ix2 (j 0) l))
      = V c main_arg1 (ix2 ((((cfg1.win 3).blk t).view.emb j) 0) l)
    refine congrArg (V c main_arg1) (funext fun a => Fin.ext ?_)
    match a with
    | ⟨0, _⟩ =>
      show win1_0.index t (0 : Fin 2) * 400 + 1 * (j 0).val = win1_3.index t (0 : Fin 2) * 400 + 1 * (j 0).val
      omega
    | ⟨1, _⟩ =>
      show win1_0.index t (1 : Fin 2) * 10000 + 1 * l.val = l.val
      omega
  · show V c main_v0 (((cfg1.win 1).blk t).view.emb (ix2 l k)) = V c main_v0 (ix2 l k)
    refine congrArg (V c main_v0) (funext fun a => Fin.ext ?_)
    match a with
    | ⟨0, _⟩ =>
      show win1_1.index t (0 : Fin 2) * 10000 + 1 * l.val = l.val
      omega
    | ⟨1, _⟩ =>
      show win1_1.index t (1 : Fin 2) * 256 + 1 * k.val = k.val
      omega
  · show V c main_arg3 (((cfg1.win 2).blk t).view.emb (ix2 k (j 1)))
      = V c main_arg3 (ix2 k ((((cfg1.win 3).blk t).view.emb j) 1))
    refine congrArg (V c main_arg3) (funext fun a => Fin.ext ?_)
    match a with
    | ⟨0, _⟩ =>
      show win1_2.index t (0 : Fin 2) * 256 + 1 * k.val = k.val
      omega
    | ⟨1, _⟩ =>
      show win1_2.index t (1 : Fin 2) * 256 + 1 * (j 1).val = win1_3.index t (1 : Fin 2) * 256 + 1 * (j 1).val
      omega

/-- An index of window 3's array lies in point `t`'s block iff each coordinate is in the block's range on its axis. -/
theorem mem_blk3 (t : Fin cfg1.N) (i : S10000x256.Idx) :
    i ∈ ((cfg1.win 3).blk t).view.set ↔ ∀ a : Fin 2, win1_3.index t a * S400x256.size a ≤ (i a).val
      ∧ (i a).val < win1_3.index t a * S400x256.size a + S400x256.size a := by
  show i ∈ ((View.whole main_v1_0).slice (win1_3.rect t)).set ↔ _
  rw [View.set_slice_whole, Rect.mem_set_unit]
  exact Iff.rfl

/-- Every index of window 3's array is in some point's block: row `r` in block `r / 400`. -/
theorem cover3 (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN : grid1.N = 25 := N_1
  obtain ⟨t, ht⟩ : ∃ t : Fin cfg1.N, t.val = (i 0).val / 400 :=
    ⟨⟨(i 0).val / 400, by show (i 0).val / 400 < grid1.N; omega⟩, rfl⟩
  obtain ⟨-, -, -, -, -, -, e6, e7, -, -⟩ := idx_facts t
  refine ⟨t, flush1_3 t, ?_⟩
  rw [mem_blk3]
  intro a
  match a with
  | ⟨0, _⟩ =>
    show win1_3.index t (0 : Fin 2) * 400 ≤ (i 0).val ∧ (i 0).val < win1_3.index t (0 : Fin 2) * 400 + 400
    omega
  | ⟨1, _⟩ =>
    show win1_3.index t (1 : Fin 2) * 256 ≤ (i 1).val ∧ (i 1).val < win1_3.index t (1 : Fin 2) * 256 + 256
    omega

/-- Window 3's array after the region: the hidden layer of the entry arrays against the entry weight. -/
theorem final3 (c : Dev nD) :
    (dat1 V c).arrAt 3 cfg1.N = feat (relu (aggr (V c main_arg1) (V c main_v0))) (V c main_arg3) :=
  (dat1 V c).arrAt_eq_of_cover 3 (feat (relu (aggr (V c main_arg1) (V c main_v0))) (V c main_arg3))
    (fun t _ => flushed_eq3 V c t) cover3

/-! ## The adjacency, narrowed (output window 4) -/

/-- What point `t` writes back through window 4 is block `t` of the entry adjacency. -/
theorem flushed_eq4 (c : Dev nD) (t : Fin cfg1.N) :
    (dat1 V c).flushed 4 t = ((cfg1.win 4).blk t).view.read (Elt Ideal) (V c main_arg1 : SAdj.Idx → EReal) := by
  show (cfg1.win 4).cut (grid1.coords t) ((dat1 V c).after 4 t) = _
  rw [after1_4]
  unfold out1_4
  rw [View.canon_unit_zero hz]
  simp only [View.ld_unit_zero (S := S400x10000) hz]
  obtain ⟨e0, e1, e2, e3, e4, e5, e6, e7, e8, e9⟩ := idx_facts t
  funext j
  show k1_pay1 (F := Ideal) (iblk1 V c 0 t) j = V c main_arg1 (((cfg1.win 4).blk t).view.emb j)
  refine (congrFun (Pay.adj_copy (iblk1 V c 0 t)) j).trans ?_
  show V c main_arg1 (((cfg1.win 0).blk t).view.emb j) = V c main_arg1 (((cfg1.win 4).blk t).view.emb j)
  refine congrArg (V c main_arg1) (funext fun a => Fin.ext ?_)
  match a with
  | ⟨0, _⟩ =>
    show win1_0.index t (0 : Fin 2) * 400 + 1 * (j 0).val = win1_4.index t (0 : Fin 2) * 400 + 1 * (j 0).val
    omega
  | ⟨1, _⟩ =>
    show win1_0.index t (1 : Fin 2) * 10000 + 1 * (j 1).val = win1_4.index t (1 : Fin 2) * 10000 + 1 * (j 1).val
    omega

/-- An index of window 4's array lies in point `t`'s block iff each coordinate is in the block's range on its axis. -/
theorem mem_blk4 (t : Fin cfg1.N) (i : S10000x10000.Idx) :
    i ∈ ((cfg1.win 4).blk t).view.set ↔ ∀ a : Fin 2, win1_4.index t a * S400x10000.size a ≤ (i a).val
      ∧ (i a).val < win1_4.index t a * S400x10000.size a + S400x10000.size a := by
  show i ∈ ((View.whole main_v1_1).slice (win1_4.rect t)).set ↔ _
  rw [View.set_slice_whole, Rect.mem_set_unit]
  exact Iff.rfl

/-- Every index of window 4's array is in some point's block: row `r` in block `r / 400`. -/
theorem cover4 (i : S10000x10000.Idx) :
    ∃ t : Fin cfg1.N, (cfg1.win 4).flush t = true ∧ i ∈ ((cfg1.win 4).blk t).view.set := by
  have hi0 : (i 0).val < 10000 := (i 0).isLt
  have hi1 : (i 1).val < 10000 := (i 1).isLt
  have hN : grid1.N = 25 := N_1
  obtain ⟨t, ht⟩ : ∃ t : Fin cfg1.N, t.val = (i 0).val / 400 :=
    ⟨⟨(i 0).val / 400, by show (i 0).val / 400 < grid1.N; omega⟩, rfl⟩
  obtain ⟨-, -, -, -, -, -, -, -, e8, e9⟩ := idx_facts t
  refine ⟨t, flush1_4 t, ?_⟩
  rw [mem_blk4]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 10000 ≤ (i 1).val ∧ (i 1).val < win1_4.index t (1 : Fin 2) * 10000 + 10000
    omega

/-- Window 4's array after the region: the entry adjacency. -/
theorem final4 (c : Dev nD) : (dat1 V c).arrAt 4 cfg1.N = (V c main_arg1 : SAdj.Idx → EReal) :=
  (dat1 V c).arrAt_eq_of_cover 4 (V c main_arg1 : SAdj.Idx → EReal) (fun t _ => flushed_eq4 V c t) cover4

end Cert.KernelIdeal.Region1

end
-- ==== Proof.Region2.lean ====
/-
  The third pallas_call, whatever the buffers hold when it is entered (`V`): its 25 grid points each take 400
  consecutive rows of the (narrowed) adjacency and the whole node × feature array left by the second call, and write
  back the aggregation of those rows. Block `t` of the output is rows `400 t … 400 t + 399`, all 256 columns; row `r`
  lies in block `r / 400`; so the blocks tile the output, which ends at `aggr` of the two entry arrays.
-/
import proofs.«102306_g15195594293516_cont_week2b_250_6_alg».proof.Proof.Gen.KernelIdeal.Frame
import proofs.«102306_g15195594293516_cont_week2b_250_6_alg».proof.Proof.Pay
import proofs.«102306_g15195594293516_cont_week2b_250_6_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Cert.Gcn
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The block each window takes at point `t`: the adjacency window and the output at block row `t`, the node ×
    feature array whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One point, over plain variables: if the loaded adjacency block holds row `i 0` of `A` at its row `p`, and the
    loaded node × feature array holds column `i 1` of `S` at its column `q`, the stored value at `(p, q)` is
    `aggr A S` at `i`. -/
theorem block_eq (A : SAdj.Idx → EReal) (S : SNode.Idx → EReal)
    (x0 : FVec Ideal S400x10000 .bf16) (x1 : FVec Ideal S10000x256 .bf16) (i : SNode.Idx) (p : Fin 400) (q : Fin 256)
    (h0 : ∀ k : Fin 10000, x0 (ix2 p k) = A (ix2 (i 0) k))
    (h1 : ∀ k : Fin 10000, x1 (ix2 k q) = S (ix2 k (i 1))) :
    k2_pay1 (F := Ideal) x0 x1 (ix2 p q) = aggr A S i := by
  rw [Pay.out_at]
  show _ = ∑ k : Fin 10000, A (ix2 (i 0) k) * S (ix2 k (i 1))
  refine Finset.sum_congr rfl fun k _ => ?_
  rw [h0, h1]

/-- What point `t` writes back is block `t` of `aggr` of the entry arrays. -/
theorem flushed_eq (c : Dev nD) (t : Fin cfg2.N) :
    (dat2 V c).flushed 2 t = ((cfg2.win 2).blk t).view.read (Elt Ideal) (aggr (V c main_v1_1) (V c main_v1_0)) := by
  show (cfg2.win 2).cut (grid2.coords t) ((dat2 V c).after 2 t) = _
  rw [after2_2]
  unfold out2_2
  rw [View.canon_unit_zero hz]
  simp only [View.ld_unit_zero (S := S400x10000) hz, View.ld_unit_zero (S := S10000x256) hz]
  obtain ⟨e0, e1, e2, e3, e4, e5⟩ := idx_facts t
  funext j
  show k2_pay1 (iblk2 V c 0 t) (iblk2 V c 1 t) j
    = aggr (V c main_v1_1) (V c main_v1_0) (((cfg2.win 2).blk t).view.emb j)
  refine (congrArg (k2_pay1 (F := Ideal) (iblk2 V c 0 t) (iblk2 V c 1 t)) (eq_ix2 (n0 := 400) (n1 := 256) j)).trans ?_
  refine block_eq (V c main_v1_1) (V c main_v1_0) (iblk2 V c 0 t) (iblk2 V c 1 t)
    (((cfg2.win 2).blk t).view.emb j) (j 0) (j 1) (fun k => ?_) (fun k => ?_)
  · show V c main_v1_1 (((cfg2.win 0).blk t).view.emb (ix2 (j 0) k))
      = V c main_v1_1 (ix2 ((((cfg2.win 2).blk t).view.emb j) 0) k)
    refine congrArg (V c main_v1_1) (funext fun a => Fin.ext ?_)
    match a with
    | ⟨0, _⟩ =>
      show win2_0.index t (0 : Fin 2) * 400 + 1 * (j 0).val = win2_2.index t (0 : Fin 2) * 400 + 1 * (j 0).val
      omega
    | ⟨1, _⟩ =>
      show win2_0.index t (1 : Fin 2) * 10000 + 1 * k.val = k.val
      omega
  · show V c main_v1_0 (((cfg2.win 1).blk t).view.emb (ix2 k (j 1)))
      = V c main_v1_0 (ix2 k ((((cfg2.win 2).blk t).view.emb j) 1))
    refine congrArg (V c main_v1_0) (funext fun a => Fin.ext ?_)
    match a with
    | ⟨0, _⟩ =>
      show win2_1.index t (0 : Fin 2) * 10000 + 1 * k.val = k.val
      omega
    | ⟨1, _⟩ =>
      show win2_1.index t (1 : Fin 2) * 256 + 1 * (j 1).val = win2_2.index t (1 : Fin 2) * 256 + 1 * (j 1).val
      omega

/-- An index of the output lies in point `t`'s block iff each coordinate is in the block's range on its axis. -/
theorem mem_blk (t : Fin cfg2.N) (i : S10000x256.Idx) :
    i ∈ ((cfg2.win 2).blk t).view.set ↔ ∀ a : Fin 2, win2_2.index t a * S400x256.size a ≤ (i a).val
      ∧ (i a).val < win2_2.index t a * S400x256.size a + S400x256.size a := by
  show i ∈ ((View.whole main_v2).slice (win2_2.rect t)).set ↔ _
  rw [View.set_slice_whole, Rect.mem_set_unit]
  exact Iff.rfl

/-- Every index of the output is in some point's block: row `r` in block `r / 400`. -/
theorem cover (i : S10000x256.Idx) :
    ∃ t : Fin cfg2.N, (cfg2.win 2).flush t = true ∧ i ∈ ((cfg2.win 2).blk t).view.set := by
  have hi0 : (i 0).val < 10000 := (i 0).isLt
  have hi1 : (i 1).val < 256 := (i 1).isLt
  have hN : grid2.N = 25 := N_2
  obtain ⟨t, ht⟩ : ∃ t : Fin cfg2.N, t.val = (i 0).val / 400 :=
    ⟨⟨(i 0).val / 400, by show (i 0).val / 400 < grid2.N; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 400 ≤ (i 0).val ∧ (i 0).val < win2_2.index t (0 : Fin 2) * 400 + 400
    omega
  | ⟨1, _⟩ =>
    show win2_2.index t (1 : Fin 2) * 256 ≤ (i 1).val ∧ (i 1).val < win2_2.index t (1 : Fin 2) * 256 + 256
    omega

/-- The output array after the region: the aggregation of the two entry arrays. -/
theorem final (c : Dev nD) : (dat2 V c).arrAt 2 cfg2.N = aggr (V c main_v1_1) (V c main_v1_0) :=
  (dat2 V c).arrAt_eq_of_cover 2 (aggr (V c main_v1_1) (V c main_v1_0)) (fun t _ => flushed_eq V c t) cover

end Cert.KernelIdeal.Region2

end
-- ==== Proof.KernelRun.lean ====
/-
  The kernel's run, with its result named. The program is three pallas_calls in a row; the buffers at each boundary
  are a fold from the launch memory: after the first call the support array is `feat X W₁`; after the second the
  narrowed adjacency is the adjacency `A` itself and the second array is `feat (relu (aggr A (feat X W₁))) W₂`; after
  the third the result is `aggr` of those two, which is `gcn X A W₁ W₂`. No call writes an argument, so each argument
  read at a later boundary is the launch memory's. Every weakly fair execution then ends with the result buffer at
  that array and the arguments as launched.
-/
import proofs.«102306_g15195594293516_cont_week2b_250_6_alg».proof.Proof.Gen.KernelIdeal.Frame
import proofs.«102306_g15195594293516_cont_week2b_250_6_alg».proof.Proof.Region0
import proofs.«102306_g15195594293516_cont_week2b_250_6_alg».proof.Proof.Region1
import proofs.«102306_g15195594293516_cont_week2b_250_6_alg».proof.Proof.Region2

set_option maxRecDepth 16384

noncomputable section

namespace Cert.KernelIdeal.KernelValue

open Cert.KernelIdeal Cert.KernelIdeal.Gen Cert.Gcn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The buffers at each boundary -/

/-- The adjacency, entering the second call, is the launch memory's: the first call does not touch it. -/
theorem V1_adj (c : Dev nD) :
    (V1 m ρ c main_arg1 : SAdj.Idx → EReal) = m ((c : Thread nD τ).loc main_arg1) :=
  W1_of_ne m ρ c main_arg1 (by decide)

/-- The second weight, entering the second call, is the launch memory's. -/
theorem V1_w2 (c : Dev nD) :
    (V1 m ρ c main_arg3 : SWt.Idx → EReal) = m ((c : Thread nD τ).loc main_arg3) :=
  W1_of_ne m ρ c main_arg3 (by decide)

/-- The support array, entering the second call: `feat X W₁`. -/
theorem V1_support (c : Dev nD) :
    (V1 m ρ c main_v0 : SNode.Idx → EReal)
      = feat (m ((c : Thread nD τ).loc main_arg0)) (m ((c : Thread nD τ).loc main_arg2)) :=
  (W1_arr m ρ c 2).trans (Region0.final (V0 m ρ) c)

/-- The narrowed adjacency, entering the third call, is the adjacency. -/
theorem V2_adj (c : Dev nD) :
    (V2 m ρ c main_v1_1 : SAdj.Idx → EReal) = m ((c : Thread nD τ).loc main_arg1) :=
  (W2_arr m ρ c 4).trans ((Region1.final4 (V1 m ρ) c).trans (V1_adj m ρ c))

/-- The second array, entering the third call: the hidden layer against the second weight. -/
theorem V2_s2 (c : Dev nD) :
    (V2 m ρ c main_v1_0 : SNode.Idx → EReal)
      = feat (hidden (m ((c : Thread nD τ).loc main_arg0)) (m ((c : Thread nD τ).loc main_arg1))
          (m ((c : Thread nD τ).loc main_arg2))) (m ((c : Thread nD τ).loc main_arg3)) := by
  refine (W2_arr m ρ c 3).trans ((Region1.final3 (V1 m ρ) c).trans ?_)
  rw [V1_adj m ρ c, V1_support m ρ c, V1_w2 m ρ c]
  rfl

/-- The result buffer at the last boundary: the two layers of the launch memory's arguments. -/
theorem W3_result (c : Dev nD) :
    (W3 m ρ c (Proc.devRef .tc main_v2) : SNode.Idx → EReal)
      = gcn (m ((c : Thread nD τ).loc main_arg0)) (m ((c : Thread nD τ).loc main_arg1))
          (m ((c : Thread nD τ).loc main_arg2)) (m ((c : Thread nD τ).loc main_arg3)) := by
  refine (W3_arr m ρ c 2).trans ((Region2.final (V2 m ρ) c).trans ?_)
  rw [V2_adj m ρ c, V2_s2 m ρ c]
  rfl

/-! ## The run -/

set_option backward.isDefEq.respectTransparency.types false in
/-- From any memory with zero counters, every weakly fair execution of the program terminates, nothing faulting,
    with the result buffer at `gcn` of the launch memory's arguments and the arguments as launched: the launch over
    the three calls as segments, the last thread state (every unscoped buffer at the last boundary's contents) read
    against the final state, the result by `W3_result` and each argument by its walk back to the launch memory. -/
theorem run : θ_run defs (onTc (τ := τ) (main (F := Ideal))) ⟨m, fun _ => 0, ρ⟩ (fun r => ∀ c : Dev nD,
      r.2.mem ((c.tc : Thread nD τ).loc main_v2)
        = gcn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.KernelValue

end
-- ==== Proof.RefSpec.lean ====
/-
  The reference, stage by stage, is the specification: its four products are the sums `feat` / `aggr` spell — the
  left operand read at (row, k), the right at (k, column) — and its maximum against the broadcast zero word is
  `relu`, the zero word's value being the real 0.
-/
import proofs.«102306_g15195594293516_cont_week2b_250_6_alg».proof.Proof.Gen.ReferenceIdeal.Read
import proofs.«102306_g15195594293516_cont_week2b_250_6_alg».proof.Proof.Spec

noncomputable section

namespace Cert.ReferenceIdeal.RefValue

open Cert.ReferenceIdeal Cert.ReferenceIdeal.Read Idealize.ShloMosaic Idealize.ShloMosaic.ValueIdx Cert.Gcn

/-! ## Where each product reads its operands -/

theorem lidx_v0 (i : S10000x256.Idx) (k : Fin 256) : lidx_main_v0 i k = ix2 (i 0) k :=
  funext fun a => Fin.ext (by match a with | ⟨0, _⟩ => rfl | ⟨1, _⟩ => rfl)
theorem ridx_v0 (i : S10000x256.Idx) (k : Fin 256) : ridx_main_v0 i k = ix2 k (i 1) :=
  funext fun a => Fin.ext (by match a with | ⟨0, _⟩ => rfl | ⟨1, _⟩ => rfl)
theorem lidx_v1 (i : S10000x256.Idx) (k : Fin 10000) : lidx_main_v1 i k = ix2 (i 0) k :=
  funext fun a => Fin.ext (by match a with | ⟨0, _⟩ => rfl | ⟨1, _⟩ => rfl)
theorem ridx_v1 (i : S10000x256.Idx) (k : Fin 10000) : ridx_main_v1 i k = ix2 k (i 1) :=
  funext fun a => Fin.ext (by match a with | ⟨0, _⟩ => rfl | ⟨1, _⟩ => rfl)
theorem lidx_v3 (i : S10000x256.Idx) (k : Fin 256) : lidx_main_v3 i k = ix2 (i 0) k :=
  funext fun a => Fin.ext (by match a with | ⟨0, _⟩ => rfl | ⟨1, _⟩ => rfl)
theorem ridx_v3 (i : S10000x256.Idx) (k : Fin 256) : ridx_main_v3 i k = ix2 k (i 1) :=
  funext fun a => Fin.ext (by match a with | ⟨0, _⟩ => rfl | ⟨1, _⟩ => rfl)
theorem lidx_v4 (i : S10000x256.Idx) (k : Fin 10000) : lidx_main_v4 i k = ix2 (i 0) k :=
  funext fun a => Fin.ext (by match a with | ⟨0, _⟩ => rfl | ⟨1, _⟩ => rfl)
theorem ridx_v4 (i : S10000x256.Idx) (k : Fin 10000) : ridx_main_v4 i k = ix2 k (i 1) :=
  funext fun a => Fin.ext (by match a with | ⟨0, _⟩ => rfl | ⟨1, _⟩ => rfl)

/-! ## The stages -/

/-- `X · W₁`. -/
theorem v0_eq (x0 : SNode.Idx → EReal) (x2 : SWt.Idx → EReal) : val_main_v0 (F := Ideal) x0 x2 = feat x0 x2 := by
  funext i
  rw [val_main_v0_apply]
  show _ = ∑ k : Fin 256, x0 (ix2 (i 0) k) * x2 (ix2 k (i 1))
  refine Finset.sum_congr rfl fun k _ => ?_
  rw [lidx_v0, ridx_v0]
  rfl

/-- `A · (X · W₁)`. -/
theorem v1_eq (x0 : SNode.Idx → EReal) (x1 : SAdj.Idx → EReal) (x2 : SWt.Idx → EReal) :
    val_main_v1 (F := Ideal) x0 x1 x2 = aggr x1 (feat x0 x2) := by
  funext i
  rw [val_main_v1_apply, v0_eq]
  show _ = ∑ k : Fin 10000, x1 (ix2 (i 0) k) * feat x0 x2 (ix2 k (i 1))
  refine Finset.sum_congr rfl fun k _ => ?_
  rw [lidx_v1, ridx_v1]
  rfl

/-- The broadcast zero word is the real 0 at every index. -/
theorem zero_at (i : S10000x256.Idx) : val_main_call0_v0 (F := Ideal) i = 0 := by
  rw [val_main_call0_v0_apply, val_main_call0_cst_apply]
  exact Ideal.ofBits_zero_f32

/-- `relu (A · (X · W₁))`. -/
theorem v2_eq (x0 : SNode.Idx → EReal) (x1 : SAdj.Idx → EReal) (x2 : SWt.Idx → EReal) :
    val_main_v2 (F := Ideal) x0 x1 x2 = hidden x0 x1 x2 := by
  funext i
  rw [val_main_v2_apply, v1_eq, zero_at]
  rfl

/-- `relu (A · (X · W₁)) · W₂`. -/
theorem v3_eq (x0 : SNode.Idx → EReal) (x1 : SAdj.Idx → EReal) (x2 x3 : SWt.Idx → EReal) :
    val_main_v3 (F := Ideal) x0 x1 x2 x3 = feat (hidden x0 x1 x2) x3 := by
  funext i
  rw [val_main_v3_apply, v2_eq]
  show _ = ∑ k : Fin 256, hidden x0 x1 x2 (ix2 (i 0) k) * x3 (ix2 k (i 1))
  refine Finset.sum_congr rfl fun k _ => ?_
  rw [lidx_v3, ridx_v3]
  rfl

/-- The reference's result: the two layers. -/
theorem v4_eq (x0 : SNode.Idx → EReal) (x1 : SAdj.Idx → EReal) (x2 x3 : SWt.Idx → EReal) :
    val_main_v4 (F := Ideal) x0 x1 x2 x3 = gcn x0 x1 x2 x3 := by
  funext i
  rw [val_main_v4_apply, v3_eq]
  show _ = ∑ k : Fin 10000, x1 (ix2 (i 0) k) * feat (hidden x0 x1 x2) x3 (ix2 k (i 1))
  refine Finset.sum_congr rfl fun k _ => ?_
  rw [lidx_v4, ridx_v4]
  rfl

end Cert.ReferenceIdeal.RefValue

end
-- ==== Proof.lean ====
/-
  A two-layer graph convolution over a dense adjacency, computed by three blocked stages against the plain chain of
  four matrix products. On the extended reals (every float an exact extended real, every change of format the
  identity) both programs compute   A · (relu (A · (X · W₁)) · W₂)   with the SAME grouping:

    the staged program   stage 1: S = X · W₁ on blocks of 2000 rows;
                         stage 2: on blocks of 400 rows of A, the block itself (narrowed, hence unchanged) and
                                  relu (A_blk · S) · W₂;
                         stage 3: on blocks of 400 rows of the narrowed A, A_blk · (stage 2's array);
    the plain program    %0 = X · W₁, %1 = A · %0, %2 = max (%1, 0), %3 = %2 · W₂, %4 = A · %3.

  A row block of a product `A · B` is the product of the row block of `A` with `B`, and the blocks of each stage tile
  its output, so each stage's output array is the whole product (Region0 / Region1 / Region2, over the body values
  of Pay and Dots); the three stages compose along the buffers at the stage boundaries (KernelRun) to `Cert.Gcn.gcn`
  of the arguments (Spec); and the plain program's result is the same function (RefSpec). A product at an index is a
  finite sum, which does not depend on the order of its terms, and no other law of the extended reals is used: the
  precondition (finite inputs) is never opened. The idealized program is the program's own text read on the extended
  reals (nothing was rewritten), so there is nothing to preserve beyond `True`.
-/
import proofs.«102306_g15195594293516_cont_week2b_250_6_alg».proof.Defs
import proofs.«102306_g15195594293516_cont_week2b_250_6_alg».proof.Proof.Gen.Kernel
import proofs.«102306_g15195594293516_cont_week2b_250_6_alg».proof.Proof.Gen.Kernel.Frame
import proofs.«102306_g15195594293516_cont_week2b_250_6_alg».proof.Proof.Gen.KernelIdeal
import proofs.«102306_g15195594293516_cont_week2b_250_6_alg».proof.Proof.Gen.KernelIdeal.Frame
import proofs.«102306_g15195594293516_cont_week2b_250_6_alg».proof.Proof.Gen.ReferenceIdeal
import proofs.«102306_g15195594293516_cont_week2b_250_6_alg».proof.Proof.Gen.ReferenceIdeal.Run
import proofs.«102306_g15195594293516_cont_week2b_250_6_alg».proof.Proof.Gen.ReferenceIdeal.Read
import proofs.«102306_g15195594293516_cont_week2b_250_6_alg».proof.Proof.Gen.Pre_finite_inputs
import proofs.«102306_g15195594293516_cont_week2b_250_6_alg».proof.Proof.KernelRun
import proofs.«102306_g15195594293516_cont_week2b_250_6_alg».proof.Proof.RefSpec
import Idealize.ShloMosaic.Adequacy
import Idealize.ShloMosaic.Init

noncomputable section

namespace Cert.Proof

open Idealize.ShloMosaic Idealize.SL.Sem

/-- The staged program at the word level runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The plain program runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the four arguments both programs end with the result buffer at `gcn` of those
    arguments: the staged program by its run (`KernelValue.run`), the plain program by its run, whose composed term is
    the last stage (`val_main_v4_eq`), which is `gcn` (`RefValue.v4_eq`) of arguments that are the staged program's. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.v4_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
